-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : IVec S262144 32) (main_arg1 : FVec F S4096x64x64 .f32) (main_arg2 : FVec F S2048x128 .f32) (main_arg3 : FVec F S3x128x128 .f32) (main_arg4 : FVec F S3x128 .f32) : IVec S_ 1 :=
  let main_v0 : FVec F S4096x64x64 .f32 := Host.absf main_arg1
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩
abbrev S262144x1 : Shape := ⟨2, ![262144, 1]⟩
abbrev S262144x128 : Shape := ⟨2, ![262144, 128]⟩
abbrev S4096x64x128 : Shape := ⟨3, ![4096, 64, 128]⟩
abbrev S4096x128 : Shape := ⟨2, ![4096, 128]⟩
abbrev S128x64x128 : Shape := ⟨3, ![128, 64, 128]⟩
abbrev S128x64x64 : Shape := ⟨3, ![128, 64, 64]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S8192x128 : Shape := ⟨2, ![8192, 128]⟩

abbrev nBuf : Space → Nat
  | .hbm => 17
  | .vmem => 8
  | .smem => 0
  | _ => 0

abbrev bufTy : (tb : Table) → Fin (tcTables nBuf tb) → BufTy
  | .hbm, ⟨0, _⟩ => ⟨S262144, .i32⟩
  | .hbm, ⟨1, _⟩ => ⟨S4096x64x64, .f32⟩
  | .hbm, ⟨2, _⟩ => ⟨S2048x128, .f32⟩
  | .hbm, ⟨3, _⟩ => ⟨S3x128x128, .f32⟩
  | .hbm, ⟨4, _⟩ => ⟨S3x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S4096x64x128, .f32⟩
  | .hbm, ⟨15, _⟩ => ⟨S3x128x128, .f32⟩
  | .hbm, ⟨16, _⟩ => ⟨S4096x128, .f32⟩
  | .local _ .vmem, ⟨0, _⟩ => ⟨S128x64x128, .f32⟩
  | .local _ .vmem, ⟨1, _⟩ => ⟨S128x64x128, .f32⟩
  | .local _ .vmem, ⟨2, _⟩ => ⟨S128x64x64, .f32⟩
  | .local _ .vmem, ⟨3, _⟩ => ⟨S128x64x64, .f32⟩
  | .local _ .vmem, ⟨4, _⟩ => ⟨S3x128x128, .f32⟩
  | .local _ .vmem, ⟨5, _⟩ => ⟨S3x128, .f32⟩
  | .local _ .vmem, ⟨6, _⟩ => ⟨S128x128, .f32⟩
  | .local _ .vmem, ⟨7, _⟩ => ⟨S128x128, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S4096x64x128 : S262144x128.ShapeCasts S4096x64x128
  transposes_S3x128x128_S3x128x128_0_2_1 : S3x128x128.Transposes [0, 2, 1] S3x128x128
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  inb_S128x64x64_S128x64x64_0_0_0 : ∀ a, (![0, 0, 0] : Fin 3 → Nat) a + S128x64x64.size a ≤ S128x64x64.size a
  h_S128x64x64 : 0 < S128x64x64.numel
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128x64x128_S8192x128 : S128x64x128.ShapeCasts S8192x128
  shapeCasts_S128_S1x128 : S128.ShapeCasts S1x128
  broadcasts_S1x128_S8192x128 : S1x128.Broadcasts S8192x128
  shapeCasts_S8192x128_S128x64x128 : S8192x128.ShapeCasts S128x64x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  reduces_S128x64x128_S128x128 : S128x64x128.Reduces [1] S128x128
  inb_S128x128_S128x128_0_0 : ∀ a, (![0, 0] : Fin 2 → Nat) a + S128x128.size a ≤ S128x128.size a
  h_S128x128 : 0 < S128x128.numel
  gather_S2048x128_S262144x1_S262144x128_1_0_n_n_0_1_1128_wf : GatherDims.WF S2048x128 S262144x1 S262144x128 [1] [0] [] [0] [] 1 ![1, 128]
  dot_S8192x128_S128x128_S8192x128_1_0_0_1_n_n_wf : DotDims.WF S8192x128 S128x128 S8192x128 [1] [0] [0] [1] [] []
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S4096x64x128.size a
  hwx0_0 : ∀ i : grid0.Coords, EltTy.bits .f32 = 32 ∨ (Rect.block (s := S4096x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S4096x128.size a
  hwx0_4 : ∀ i : grid0.Coords, EltTy.bits .f32 = 32 ∨ (Rect.block (s := S4096x128) S128x128.size (cc0_transform_4 i) (hinb0_4 i)).WholeWords (EltTy.packing .f32)

variable [Facts₀]

def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_v7) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩
abbrev S262144x1 : Shape := ⟨2, ![262144, 1]⟩
abbrev S262144x128 : Shape := ⟨2, ![262144, 128]⟩
abbrev S4096x64x128 : Shape := ⟨3, ![4096, 64, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S4096x128 : Shape := ⟨2, ![4096, 128]⟩

abbrev nBuf : Space → Nat
  | .hbm => 56
  | .vmem => 0
  | .smem => 0
  | _ => 0

abbrev bufTy : (tb : Table) → Fin (tcTables nBuf tb) → BufTy
  | .hbm, ⟨0, _⟩ => ⟨S262144, .i32⟩
  | .hbm, ⟨1, _⟩ => ⟨S4096x64x64, .f32⟩
  | .hbm, ⟨2, _⟩ => ⟨S2048x128, .f32⟩
  | .hbm, ⟨3, _⟩ => ⟨S3x128x128, .f32⟩
  | .hbm, ⟨4, _⟩ => ⟨S3x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S4096x64x128, .f32⟩
  | .hbm, ⟨15, _⟩ => ⟨S1x128x128, .f32⟩
  | .hbm, ⟨16, _⟩ => ⟨S128x128, .f32⟩
  | .hbm, ⟨17, _⟩ => ⟨S4096x64x128, .f32⟩
  | .hbm, ⟨18, _⟩ => ⟨S1x128, .f32⟩
  | .hbm, ⟨19, _⟩ => ⟨S128, .f32⟩
  | .hbm, ⟨20, _⟩ => ⟨S1x1x128, .f32⟩
  | .hbm, ⟨21, _⟩ => ⟨S4096x64x128, .f32⟩
  | .hbm, ⟨22, _⟩ => ⟨S4096x64x128, .f32⟩
  | .hbm, ⟨23, _⟩ => ⟨S_, .f32⟩
  | .hbm, ⟨24, _⟩ => ⟨S4096x64x128, .f32⟩
  | .hbm, ⟨25, _⟩ => ⟨S4096x64x128, .f32⟩
  | .hbm, ⟨26, _⟩ => ⟨S4096x64x128, .f32⟩
  | .hbm, ⟨27, _⟩ => ⟨S4096x64x128, .f32⟩
  | .hbm, ⟨28, _⟩ => ⟨S1x128x128, .f32⟩
  | .hbm, ⟨29, _⟩ => ⟨S128x128, .f32⟩
  | .hbm, ⟨30, _⟩ => ⟨S4096x64x128, .f32⟩
  | .hbm, ⟨31, _⟩ => ⟨S1x128, .f32⟩
  | .hbm, ⟨32, _⟩ => ⟨S128, .f32⟩
  | .hbm, ⟨33, _⟩ => ⟨S1x1x128, .f32⟩
  | .hbm, ⟨34, _⟩ => ⟨S4096x64x128, .f32⟩
  | .hbm, ⟨35, _⟩ => ⟨S4096x64x128, .f32⟩
  | .hbm, ⟨36, _⟩ => ⟨S_, .f32⟩
  | .hbm, ⟨37, _⟩ => ⟨S4096x64x128, .f32⟩
  | .hbm, ⟨38, _⟩ => ⟨S4096x64x128, .f32⟩
  | .hbm, ⟨39, _⟩ => ⟨S4096x64x128, .f32⟩
  | .hbm, ⟨40, _⟩ => ⟨S4096x64x128, .f32⟩
  | .hbm, ⟨41, _⟩ => ⟨S1x128x128, .f32⟩
  | .hbm, ⟨42, _⟩ => ⟨S128x128, .f32⟩
  | .hbm, ⟨43, _⟩ => ⟨S4096x64x128, .f32⟩
  | .hbm, ⟨44, _⟩ => ⟨S1x128, .f32⟩
  | .hbm, ⟨45, _⟩ => ⟨S128, .f32⟩
  | .hbm, ⟨46, _⟩ => ⟨S1x1x128, .f32⟩
  | .hbm, ⟨47, _⟩ => ⟨S4096x64x128, .f32⟩
  | .hbm, ⟨48, _⟩ => ⟨S4096x64x128, .f32⟩
  | .hbm, ⟨49, _⟩ => ⟨S_, .f32⟩
  | .hbm, ⟨50, _⟩ => ⟨S4096x64x128, .f32⟩
  | .hbm, ⟨51, _⟩ => ⟨S4096x64x128, .f32⟩
  | .hbm, ⟨52, _⟩ => ⟨S4096x64x128, .f32⟩
  | .hbm, ⟨53, _⟩ => ⟨S4096x64x128, .f32⟩
  | .hbm, ⟨54, _⟩ => ⟨S_, .f32⟩
  | .hbm, ⟨55, _⟩ => ⟨S4096x128, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_cst : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call2_cst : Ref sig .tc := ⟨.hbm, 49, rfl⟩
abbrev main_call2_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S4096x64x128 : S262144x128.ShapeCasts S4096x64x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  bcast_S_S4096x64x128 : S_.BroadcastsInDim S4096x64x128 (![] : Fin 0 → Fin S4096x64x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S4096x64x128_S4096x128_d1 : S4096x64x128.ReducesTo [1] S4096x128
  h_S_ : 0 < S_.numel
  gather_S2048x128_S262144x1_S262144x128_1_0_n_n_0_1_1128_wf : GatherDims.WF S2048x128 S262144x1 S262144x128 [1] [0] [] [0] [] 1 ![1, 128]
  dot_S4096x64x128_S128x128_S4096x64x128_2_1_01_0_n_n_wf : DotDims.WF S4096x64x128 S128x128 S4096x64x128 [2] [1] [0, 1] [0] [] []
  dot_S4096x64x64_S4096x64x128_S4096x64x128_2_1_1_2_0_0_wf : DotDims.WF S4096x64x64 S4096x64x128 S4096x64x128 [2] [1] [1] [2] [0] [0]

variable [Facts₀]

def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def dot_S4096x64x128_S128x128_S4096x64x128_2_1_01_0_n_n : DotDims S4096x64x128 S128x128 S4096x64x128 where
  lhsContracting := [2]
  rhsContracting := [1]
  lhsNonContracting := [0, 1]
  rhsNonContracting := [0]
  lhsBatch := []
  rhsBatch := []
  wf := dot_S4096x64x128_S128x128_S4096x64x128_2_1_01_0_n_n_wf
def dot_S4096x64x64_S4096x64x128_S4096x64x128_2_1_1_2_0_0 : DotDims S4096x64x64 S4096x64x128 S4096x64x128 where
  lhsContracting := [2]
  rhsContracting := [1]
  lhsNonContracting := [1]
  rhsNonContracting := [2]
  lhsBatch := [0]
  rhsBatch := [0]
  wf := dot_S4096x64x64_S4096x64x128_S4096x64x128_2_1_1_2_0_0_wf

class Facts : Prop extends Facts₀ where

variable [Facts]
-- ==== Proof.Layers.lean ====
/-
  Message passing on ONE graph of 64 nodes carrying 128 features each, over the extended reals.

  A layer first applies a rectified affine map to every node's feature vector: with weights `w` and bias `b`,
  feature `j` of node `n` becomes `max (∑ₖ h n k · w j k + b j) 0`. It then adds, to every node, the
  adjacency-weighted sum of those rectified vectors over all nodes: `z m d + ∑ₙ a m n · z n d`. Three layers are
  applied in turn with the same adjacency and per-layer weights, and the result is pooled by summing each feature
  over the 64 nodes.

  Nothing here reorders or regroups a sum, and no factor is moved across a sum, so these definitions are read on
  every extended real: no finiteness is needed anywhere they are used.
-/
import Idealize.ShloMosaic.PureOps.Ideal
import Idealize.ShloMosaic.Lib.ValueIdx

noncomputable section

open scoped BigOperators

namespace Cert.MessagePassing

open Idealize.ShloMosaic Idealize.ShloMosaic.ValueIdx

/-- The rectified affine map of one layer at node `n`, feature `j`. The zero it is clipped at is written as the value
    of the single-precision zero word, which is how both programs spell it. -/
def lin (w : Fin 128 → Fin 128 → EReal) (b : Fin 128 → EReal) (h : Fin 64 → Fin 128 → EReal)
    (n : Fin 64) (j : Fin 128) : EReal :=
  max ((∑ k : Fin 128, h n k * w j k) + b j) (Ideal.ofBits .f32 0x00000000#32)

/-- One layer: the rectified vectors plus their adjacency-weighted sum over the graph's nodes. -/
def layer (a : Fin 64 → Fin 64 → EReal) (w : Fin 128 → Fin 128 → EReal) (b : Fin 128 → EReal)
    (h : Fin 64 → Fin 128 → EReal) : Fin 64 → Fin 128 → EReal :=
  fun m d => lin w b h m d + ∑ n : Fin 64, a m n * lin w b h n d

/-- Sum pooling: each feature summed over the nodes. -/
def pool (h : Fin 64 → Fin 128 → EReal) (d : Fin 128) : EReal := ∑ n : Fin 64, h n d

/-- One graph's pooled output after the three layers. -/
def graphOut (a : Fin 64 → Fin 64 → EReal) (W : Fin 3 → Fin 128 → Fin 128 → EReal) (B : Fin 3 → Fin 128 → EReal)
    (h : Fin 64 → Fin 128 → EReal) : Fin 128 → EReal :=
  pool (layer a (W 2) (B 2) (layer a (W 1) (B 1) (layer a (W 0) (B 0) h)))

/-- The whole batch: graph `g` of the 4096 reads its own 64 × 128 slab of the node features `H`, its own 64 × 64 slab of
    the adjacencies `A`, and the shared weights `W` (layer, output feature, input feature) and biases `B`. -/
def out (H : (⟨3, ![4096, 64, 128]⟩ : Shape).Idx → EReal) (A : (⟨3, ![4096, 64, 64]⟩ : Shape).Idx → EReal)
    (W : (⟨3, ![3, 128, 128]⟩ : Shape).Idx → EReal) (B : (⟨2, ![3, 128]⟩ : Shape).Idx → EReal)
    (g : Fin 4096) (d : Fin 128) : EReal :=
  graphOut (fun m n => A (ix3 g m n)) (fun l j k => W (ix3 l j k)) (fun l j => B (ix2 l j))
    (fun n k => H (ix3 g n k)) d

end Cert.MessagePassing

end
-- ==== Proof.RefLayers.lean ====
/-
  The reference program's stages, read as message passing on one graph.

  The reference applies, to the whole batch at once, a contraction of the node features with one layer's weights over
  the input-feature axis, adds that layer's bias along the feature axis, clips at zero, contracts the adjacencies with
  the result over the node axis (graph by graph), and adds. Read at graph `g`, node `m`, feature `d`, each of those
  stages touches only graph `g`'s slab, so a layer of the reference is `layer` of that slab; the last stage sums over
  the node axis starting from zero, which is `pool`.
-/
import proofs.«120459_j9388798509092_2_alg».proof.Proof.Gen.ReferenceIdeal.Read
import proofs.«120459_j9388798509092_2_alg».proof.Proof.Layers
import Idealize.ShloMosaic.PureOps.Ideal.Laws

noncomputable section

open scoped BigOperators

namespace Cert.ReferenceIdeal.RefValue

open Cert.ReferenceIdeal Cert.ReferenceIdeal.Gen Cert.ReferenceIdeal.Read Cert.MessagePassing
open Idealize.ShloMosaic Idealize.ShloMosaic.ValueIdx

variable (x0 : (⟨S262144, .i32⟩ : BufTy).Contents (Elt Ideal)) (x1 : (⟨S4096x64x64, .f32⟩ : BufTy).Contents (Elt Ideal))
  (x2 : (⟨S2048x128, .f32⟩ : BufTy).Contents (Elt Ideal)) (x3 : (⟨S3x128x128, .f32⟩ : BufTy).Contents (Elt Ideal))
  (x4 : (⟨S3x128, .f32⟩ : BufTy).Contents (Elt Ideal))

/-! ## Layer 0 -/

/-- Layer 0's weights, sliced out of the stack and flattened, read at (output feature, input feature). -/
theorem weights0 (j k : Fin 128) : val_main_v9 (F := Ideal) x3 (ix2 j k) = x3 (ix3 0 j k) := by
  rw [val_main_v9_apply, val_main_v8_apply]
  refine congrArg x3 (funext fun a => Fin.ext ?_)
  have hj : j.val < 128 := j.isLt
  have hk : k.val < 128 := k.isLt
  match a with
  | ⟨0, _⟩ => rfl
  | ⟨1, _⟩ => show (j.val * 128 + k.val) / 128 % 128 = j.val; omega
  | ⟨2, _⟩ => show (j.val * 128 + k.val) % 128 = k.val; omega

/-- Layer 0's bias, sliced, flattened and broadcast along the batch and node axes, read at a feature. -/
theorem bias0 (g : Fin 4096) (n : Fin 64) (j : Fin 128) : val_main_v14 (F := Ideal) x4 (ix3 g n j) = x4 (ix2 0 j) := by
  rw [val_main_v14_apply, val_main_v13_apply, val_main_v12_apply, val_main_v11_apply]
  refine congrArg x4 (funext fun a => Fin.ext ?_)
  have hj : j.val < 128 := j.isLt
  match a with
  | ⟨0, _⟩ => rfl
  | ⟨1, _⟩ => show j.val % 128 = j.val; omega

/-- The rectified affine stage of layer 0 at graph `g`. -/
theorem rect0 (g : Fin 4096) (n : Fin 64) (j : Fin 128) :
    val_main_v16 (F := Ideal) x0 x2 x3 x4 (ix3 g n j)
      = lin (fun j k => x3 (ix3 0 j k)) (fun j => x4 (ix2 0 j)) (fun n k => val_main_v7 (F := Ideal) x0 x2 (ix3 g n k)) n j := by
  rw [val_main_v16_apply, val_main_v15_apply, val_main_v10_apply, bias0, val_main_call0_v0_apply, val_main_call0_cst_apply]
  have el : ∀ k : Fin 128, lidx_main_v10 (ix3 g n j) k = ix3 g n k := fun k => funext fun a => by
    match a with | ⟨0, _⟩ => rfl | ⟨1, _⟩ => rfl | ⟨2, _⟩ => rfl
  have er : ∀ k : Fin 128, ridx_main_v10 (ix3 g n j) k = ix2 j k := fun k => funext fun a => by
    match a with | ⟨0, _⟩ => rfl | ⟨1, _⟩ => rfl
  simp only [el, er, weights0]
  rfl

/-- Layer 0 of the reference at graph `g` is `layer` of that graph's slabs. -/
theorem layer0 (g : Fin 4096) (m : Fin 64) (d : Fin 128) :
    val_main_v18 (F := Ideal) x0 x1 x2 x3 x4 (ix3 g m d)
      = layer (fun m n => x1 (ix3 g m n)) (fun j k => x3 (ix3 0 j k)) (fun j => x4 (ix2 0 j))
          (fun n k => val_main_v7 (F := Ideal) x0 x2 (ix3 g n k)) m d := by
  rw [val_main_v18_apply, val_main_v17_apply, rect0]
  have el : ∀ k : Fin 64, lidx_main_v17 (ix3 g m d) k = ix3 g m k := fun k => funext fun a => by
    match a with | ⟨0, _⟩ => rfl | ⟨1, _⟩ => rfl | ⟨2, _⟩ => rfl
  have er : ∀ k : Fin 64, ridx_main_v17 (ix3 g m d) k = ix3 g k d := fun k => funext fun a => by
    match a with | ⟨0, _⟩ => rfl | ⟨1, _⟩ => rfl | ⟨2, _⟩ => rfl
  simp only [el, er, rect0]
  rfl

/-! ## Layer 1 -/

/-- Layer 1's weights, sliced out of the stack and flattened, read at (output feature, input feature). -/
theorem weights1 (j k : Fin 128) : val_main_v20 (F := Ideal) x3 (ix2 j k) = x3 (ix3 1 j k) := by
  rw [val_main_v20_apply, val_main_v19_apply]
  refine congrArg x3 (funext fun a => Fin.ext ?_)
  have hj : j.val < 128 := j.isLt
  have hk : k.val < 128 := k.isLt
  match a with
  | ⟨0, _⟩ => rfl
  | ⟨1, _⟩ => show (j.val * 128 + k.val) / 128 % 128 = j.val; omega
  | ⟨2, _⟩ => show (j.val * 128 + k.val) % 128 = k.val; omega

/-- Layer 1's bias, sliced, flattened and broadcast along the batch and node axes, read at a feature. -/
theorem bias1 (g : Fin 4096) (n : Fin 64) (j : Fin 128) : val_main_v25 (F := Ideal) x4 (ix3 g n j) = x4 (ix2 1 j) := by
  rw [val_main_v25_apply, val_main_v24_apply, val_main_v23_apply, val_main_v22_apply]
  refine congrArg x4 (funext fun a => Fin.ext ?_)
  have hj : j.val < 128 := j.isLt
  match a with
  | ⟨0, _⟩ => rfl
  | ⟨1, _⟩ => show j.val % 128 = j.val; omega

/-- The rectified affine stage of layer 1 at graph `g`, over the previous layer's output. -/
theorem rect1 (g : Fin 4096) (n : Fin 64) (j : Fin 128) :
    val_main_v27 (F := Ideal) x0 x1 x2 x3 x4 (ix3 g n j)
      = lin (fun j k => x3 (ix3 1 j k)) (fun j => x4 (ix2 1 j)) (fun n k => val_main_v18 (F := Ideal) x0 x1 x2 x3 x4 (ix3 g n k)) n j := by
  rw [val_main_v27_apply, val_main_v26_apply, val_main_v21_apply, bias1, val_main_call1_v0_apply, val_main_call1_cst_apply]
  have el : ∀ k : Fin 128, lidx_main_v21 (ix3 g n j) k = ix3 g n k := fun k => funext fun a => by
    match a with | ⟨0, _⟩ => rfl | ⟨1, _⟩ => rfl | ⟨2, _⟩ => rfl
  have er : ∀ k : Fin 128, ridx_main_v21 (ix3 g n j) k = ix2 j k := fun k => funext fun a => by
    match a with | ⟨0, _⟩ => rfl | ⟨1, _⟩ => rfl
  simp only [el, er, weights1]
  rfl

/-- Layer 1 of the reference at graph `g` is `layer` of that graph's slabs. -/
theorem layer1 (g : Fin 4096) (m : Fin 64) (d : Fin 128) :
    val_main_v29 (F := Ideal) x0 x1 x2 x3 x4 (ix3 g m d)
      = layer (fun m n => x1 (ix3 g m n)) (fun j k => x3 (ix3 1 j k)) (fun j => x4 (ix2 1 j))
          (fun n k => val_main_v18 (F := Ideal) x0 x1 x2 x3 x4 (ix3 g n k)) m d := by
  rw [val_main_v29_apply, val_main_v28_apply, rect1]
  have el : ∀ k : Fin 64, lidx_main_v28 (ix3 g m d) k = ix3 g m k := fun k => funext fun a => by
    match a with | ⟨0, _⟩ => rfl | ⟨1, _⟩ => rfl | ⟨2, _⟩ => rfl
  have er : ∀ k : Fin 64, ridx_main_v28 (ix3 g m d) k = ix3 g k d := fun k => funext fun a => by
    match a with | ⟨0, _⟩ => rfl | ⟨1, _⟩ => rfl | ⟨2, _⟩ => rfl
  simp only [el, er, rect1]
  rfl

/-! ## Layer 2 -/

/-- Layer 2's weights, sliced out of the stack and flattened, read at (output feature, input feature). -/
theorem weights2 (j k : Fin 128) : val_main_v31 (F := Ideal) x3 (ix2 j k) = x3 (ix3 2 j k) := by
  rw [val_main_v31_apply, val_main_v30_apply]
  refine congrArg x3 (funext fun a => Fin.ext ?_)
  have hj : j.val < 128 := j.isLt
  have hk : k.val < 128 := k.isLt
  match a with
  | ⟨0, _⟩ => rfl
  | ⟨1, _⟩ => show (j.val * 128 + k.val) / 128 % 128 = j.val; omega
  | ⟨2, _⟩ => show (j.val * 128 + k.val) % 128 = k.val; omega

/-- Layer 2's bias, sliced, flattened and broadcast along the batch and node axes, read at a feature. -/
theorem bias2 (g : Fin 4096) (n : Fin 64) (j : Fin 128) : val_main_v36 (F := Ideal) x4 (ix3 g n j) = x4 (ix2 2 j) := by
  rw [val_main_v36_apply, val_main_v35_apply, val_main_v34_apply, val_main_v33_apply]
  refine congrArg x4 (funext fun a => Fin.ext ?_)
  have hj : j.val < 128 := j.isLt
  match a with
  | ⟨0, _⟩ => rfl
  | ⟨1, _⟩ => show j.val % 128 = j.val; omega

/-- The rectified affine stage of layer 2 at graph `g`, over the previous layer's output. -/
theorem rect2 (g : Fin 4096) (n : Fin 64) (j : Fin 128) :
    val_main_v38 (F := Ideal) x0 x1 x2 x3 x4 (ix3 g n j)
      = lin (fun j k => x3 (ix3 2 j k)) (fun j => x4 (ix2 2 j)) (fun n k => val_main_v29 (F := Ideal) x0 x1 x2 x3 x4 (ix3 g n k)) n j := by
  rw [val_main_v38_apply, val_main_v37_apply, val_main_v32_apply, bias2, val_main_call2_v0_apply, val_main_call2_cst_apply]
  have el : ∀ k : Fin 128, lidx_main_v32 (ix3 g n j) k = ix3 g n k := fun k => funext fun a => by
    match a with | ⟨0, _⟩ => rfl | ⟨1, _⟩ => rfl | ⟨2, _⟩ => rfl
  have er : ∀ k : Fin 128, ridx_main_v32 (ix3 g n j) k = ix2 j k := fun k => funext fun a => by
    match a with | ⟨0, _⟩ => rfl | ⟨1, _⟩ => rfl
  simp only [el, er, weights2]
  rfl

/-- Layer 2 of the reference at graph `g` is `layer` of that graph's slabs. -/
theorem layer2 (g : Fin 4096) (m : Fin 64) (d : Fin 128) :
    val_main_v40 (F := Ideal) x0 x1 x2 x3 x4 (ix3 g m d)
      = layer (fun m n => x1 (ix3 g m n)) (fun j k => x3 (ix3 2 j k)) (fun j => x4 (ix2 2 j))
          (fun n k => val_main_v29 (F := Ideal) x0 x1 x2 x3 x4 (ix3 g n k)) m d := by
  rw [val_main_v40_apply, val_main_v39_apply, rect2]
  have el : ∀ k : Fin 64, lidx_main_v39 (ix3 g m d) k = ix3 g m k := fun k => funext fun a => by
    match a with | ⟨0, _⟩ => rfl | ⟨1, _⟩ => rfl | ⟨2, _⟩ => rfl
  have er : ∀ k : Fin 64, ridx_main_v39 (ix3 g m d) k = ix3 g k d := fun k => funext fun a => by
    match a with | ⟨0, _⟩ => rfl | ⟨1, _⟩ => rfl | ⟨2, _⟩ => rfl
  simp only [el, er, rect2]
  rfl

/-! ## The result -/

/-- The reference's result at graph `g`, feature `d`: the three layers' output summed over the nodes, from zero. -/
theorem result (g : Fin 4096) (d : Fin 128) :
    val_main_v41 (F := Ideal) x0 x1 x2 x3 x4 (ix2 g d) = out (val_main_v7 (F := Ideal) x0 x2) x1 x3 x4 g d := by
  rw [val_main_v41_apply, val_main_cst_apply]
  have ei : ∀ k : Fin 64, idx_main_v41 (ix2 g d) k = ix3 g k d := fun k => funext fun a => by
    match a with | ⟨0, _⟩ => rfl | ⟨1, _⟩ => rfl | ⟨2, _⟩ => rfl
  have h0 : (fun n k => val_main_v18 (F := Ideal) x0 x1 x2 x3 x4 (ix3 g n k)) = _ :=
    funext fun n => funext fun k => layer0 x0 x1 x2 x3 x4 g n k
  have h1 : (fun n k => val_main_v29 (F := Ideal) x0 x1 x2 x3 x4 (ix3 g n k)) = _ :=
    funext fun n => funext fun k => layer1 x0 x1 x2 x3 x4 g n k
  simp only [ei, layer2]
  rw [h1, h0]
  show Ideal.ofBits .f32 0x00000000#32 + _ = _
  rw [Ideal.ofBits_zero_f32, zero_add]
  rfl

/-- The reference's whole result array is `out` of its gathered node features and its arguments. -/
theorem result_eq :
    val_main_v41 (F := Ideal) x0 x1 x2 x3 x4 = fun i => out (val_main_v7 (F := Ideal) x0 x2) x1 x3 x4 (i 0) (i 1) := by
  funext i
  obtain ⟨g, d, rfl⟩ : ∃ (g : Fin 4096) (d : Fin 128), i = ix2 g d := ⟨i 0, i 1, eq_ix2 i⟩
  exact result x0 x1 x2 x3 x4 g d

end Cert.ReferenceIdeal.RefValue

end
-- ==== Proof.BodyLayers.lean ====
/-
  The kernel body's arithmetic on one block of 128 graphs, read as message passing graph by graph.

  The body flattens the block's (graph, node) axes into 8192 rows, multiplies the rows by one layer's weights (already
  transposed, so the contraction runs over the weight's FIRST axis), adds the bias along the feature axis, clips at
  zero, restores the (graph, node) axes, multiplies each graph's adjacency with that graph's rectified rows, and adds.
  Row `p · 64 + n` of the flattened block is node `n` of graph `p`, so at graph `p`, node `m`, feature `d` every one of
  these operations reads graph `p`'s slab only: one layer of the body is `layer` of that slab. The changes of float
  format on the way into the products are the identity on extended reals. The body ends by summing over the node axis.
-/
import proofs.«120459_j9388798509092_2_alg».proof.Proof.Gen.KernelIdeal.Skeleton
import proofs.«120459_j9388798509092_2_alg».proof.Proof.Layers
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Cert.MessagePassing
open Idealize.ShloMosaic Idealize.ShloMosaic.ValueIdx

/-! ## Rows of the flattened block -/

/-- Node `n` of graph `p` is row `p · 64 + n` of the block with its first two axes flattened. -/
def row (p : Fin 128) (n : Fin 64) : Fin 8192 :=
  ⟨p.val * 64 + n.val, by have hp := p.isLt; have hn := n.isLt; omega⟩

/-- Restoring the (graph, node) axes reads the flattened array at that row. -/
theorem unflatten {α : Type} (Y : S8192x128.Idx → α) (p : Fin 128) (n : Fin 64) (j : Fin 128) :
    shapeCast S128x64x128 Y shapeCasts_S8192x128_S128x64x128 (ix3 p n j) = Y (ix2 (row p n) j) := by
  refine shapeCast_apply Y shapeCasts_S8192x128_S128x64x128 (ix3 p n j) (ix2 (row p n) j) ?_
  rw [Shape.rowMajor_val_two, Shape.rowMajor_val_three]
  rfl

/-- Flattening the (graph, node) axes reads the block at that graph and node. -/
theorem flatten {α : Type} (X : S128x64x128.Idx → α) (p : Fin 128) (n : Fin 64) (k : Fin 128) :
    shapeCast S8192x128 X shapeCasts_S128x64x128_S8192x128 (ix2 (row p n) k) = X (ix3 p n k) := by
  refine shapeCast_apply X shapeCasts_S128x64x128_S8192x128 (ix2 (row p n) k) (ix3 p n k) ?_
  rw [Shape.rowMajor_val_two, Shape.rowMajor_val_three]
  rfl

/-- One layer's weights, loaded as a stack of height one, with the unit axis dropped. -/
theorem weights_cast {α : Type} (w : S1x128x128.Idx → α) (k j : Fin 128) :
    shapeCast S128x128 w shapeCasts_S1x128x128_S128x128 (ix2 k j) = w (ix3 0 k j) := by
  refine shapeCast_apply w shapeCasts_S1x128x128_S128x128 (ix2 k j) (ix3 0 k j) ?_
  rw [Shape.rowMajor_val_two, Shape.rowMajor_val_three]
  show (0 * 128 + k.val) * 128 + j.val = k.val * 128 + j.val
  omega

/-- One layer's bias, loaded as one row, flattened, made a row again and broadcast down the 8192 rows. -/
theorem bias_rows {α : Type} (b : S1x128.Idx → α) (i : Fin 8192) (j : Fin 128) :
    broadcastTo S8192x128 (shapeCast S1x128 (shapeCast S128 b shapeCasts_S1x128_S128) shapeCasts_S128_S1x128)
      broadcasts_S1x128_S8192x128 (ix2 i j) = b (ix2 0 j) := by
  rw [shapeCast_shapeCast]
  exact broadcastTo_apply b broadcasts_S1x128_S8192x128 (ix2 i j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-! ## The two products and the node sum, at an index -/

theorem lin_lhs0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lin_rhs1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The rows-by-weights product into a zero accumulator: entry (row `i`, feature `j`) is the sum over the contracted
    axis, the row's second axis and the weights' first. -/
theorem matmul_rows (l : FVec Ideal S8192x128 .bf16) (r : FVec Ideal S128x128 .bf16) (i : Fin 8192) (j : Fin 128) :
    matmul dot_S8192x128_S128x128_S8192x128_1_0_0_1_n_n none l r (constant S8192x128 .f32 0x00000000#32) (ix2 i j) = ∑ k : Fin 128, l (ix2 i k) * r (ix2 k j) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 i j) ((contrEquiv1 dot_S8192x128_S128x128_S8192x128_1_0_0_1_n_n 128 rfl rfl).symm k) = ix2 i k := funext fun a => Fin.ext (by
    match a with
    | ⟨0, _⟩ => exact lin_lhs0 _ _
    | ⟨1, _⟩ => exact (dot_S8192x128_S128x128_S8192x128_1_0_0_1_n_n.lhsIdx_val_of_single rfl _ _).trans hk)
  have er : dot_S8192x128_S128x128_S8192x128_1_0_0_1_n_n.rhsIdx (ix2 i j) ((contrEquiv1 dot_S8192x128_S128x128_S8192x128_1_0_0_1_n_n 128 rfl rfl).symm k) = ix2 k j := funext fun a => Fin.ext (by
    match a with
    | ⟨0, _⟩ => exact (dot_S8192x128_S128x128_S8192x128_1_0_0_1_n_n.rhsIdx_val_of_single rfl _ _).trans hk
    | ⟨1, _⟩ => exact lin_rhs1 _ _)
  rw [el, er]

theorem adj_lhs0 (i : S128x64x128.Idx) (q : dot_S128x64x64_S128x64x128_S128x64x128_2_1_1_2_0_0.contr.Idx) : (dot_S128x64x64_S128x64x128_S128x64x128_2_1_1_2_0_0.lhsIdx i q 0).val = (i 0).val := by
  unfold DotDims.lhsIdx
  rw [dif_pos (show (0 : Fin S128x64x64.rank) ∈ dot_S128x64x64_S128x64x128_S128x64x128_2_1_1_2_0_0.lhsBatch by decide)]
  rfl
theorem adj_lhs1 (i : S128x64x128.Idx) (q : dot_S128x64x64_S128x64x128_S128x64x128_2_1_1_2_0_0.contr.Idx) : (dot_S128x64x64_S128x64x128_S128x64x128_2_1_1_2_0_0.lhsIdx i q 1).val = (i 1).val := by
  unfold DotDims.lhsIdx
  rw [dif_neg (show ¬(1 : Fin S128x64x64.rank) ∈ dot_S128x64x64_S128x64x128_S128x64x128_2_1_1_2_0_0.lhsBatch by decide), dif_pos (show (1 : Fin S128x64x64.rank) ∈ dot_S128x64x64_S128x64x128_S128x64x128_2_1_1_2_0_0.lhsNonContracting by decide)]
  rfl
theorem adj_rhs0 (i : S128x64x128.Idx) (q : dot_S128x64x64_S128x64x128_S128x64x128_2_1_1_2_0_0.contr.Idx) : (dot_S128x64x64_S128x64x128_S128x64x128_2_1_1_2_0_0.rhsIdx i q 0).val = (i 0).val := by
  unfold DotDims.rhsIdx
  rw [dif_pos (show (0 : Fin S128x64x128.rank) ∈ dot_S128x64x64_S128x64x128_S128x64x128_2_1_1_2_0_0.rhsBatch by decide)]
  rfl
theorem adj_rhs2 (i : S128x64x128.Idx) (q : dot_S128x64x64_S128x64x128_S128x64x128_2_1_1_2_0_0.contr.Idx) : (dot_S128x64x64_S128x64x128_S128x64x128_2_1_1_2_0_0.rhsIdx i q 2).val = (i 2).val := by
  unfold DotDims.rhsIdx
  rw [dif_neg (show ¬(2 : Fin S128x64x128.rank) ∈ dot_S128x64x64_S128x64x128_S128x64x128_2_1_1_2_0_0.rhsBatch by decide), dif_pos (show (2 : Fin S128x64x128.rank) ∈ dot_S128x64x64_S128x64x128_S128x64x128_2_1_1_2_0_0.rhsNonContracting by decide)]
  rfl

/-- The graph-by-graph product of adjacencies and node vectors into a zero accumulator: at graph `p`, node `m`,
    feature `d` it is the sum over that graph's nodes. -/
theorem matmul_adj (a : FVec Ideal S128x64x64 .bf16) (z : FVec Ideal S128x64x128 .bf16) (p : Fin 128) (m : Fin 64) (d : Fin 128) :
    matmul dot_S128x64x64_S128x64x128_S128x64x128_2_1_1_2_0_0 none a z (constant S128x64x128 .f32 0x00000000#32) (ix3 p m d) = ∑ n : Fin 64, a (ix3 p m n) * z (ix3 p n d) := by
  simp only [matmul]
  rw [Ideal.matmul_constant_zero_apply, ← Equiv.sum_comp (contrEquiv1 dot_S128x64x64_S128x64x128_S128x64x128_2_1_1_2_0_0 64 rfl rfl).symm]
  refine Finset.sum_congr rfl fun k _ => ?_
  have hk := contrEquiv1_symm_val dot_S128x64x64_S128x64x128_S128x64x128_2_1_1_2_0_0 64 rfl rfl k
  have el : dot_S128x64x64_S128x64x128_S128x64x128_2_1_1_2_0_0.lhsIdx (ix3 p m d) ((contrEquiv1 dot_S128x64x64_S128x64x128_S128x64x128_2_1_1_2_0_0 64 rfl rfl).symm k) = ix3 p m k := funext fun a => Fin.ext (by
    match a with
    | ⟨0, _⟩ => exact adj_lhs0 _ _
    | ⟨1, _⟩ => exact adj_lhs1 _ _
    | ⟨2, _⟩ => exact (dot_S128x64x64_S128x64x128_S128x64x128_2_1_1_2_0_0.lhsIdx_val_of_single rfl _ _).trans hk)
  have er : dot_S128x64x64_S128x64x128_S128x64x128_2_1_1_2_0_0.rhsIdx (ix3 p m d) ((contrEquiv1 dot_S128x64x64_S128x64x128_S128x64x128_2_1_1_2_0_0 64 rfl rfl).symm k) = ix3 p k d := funext fun a => Fin.ext (by
    match a with
    | ⟨0, _⟩ => exact adj_rhs0 _ _
    | ⟨1, _⟩ => exact (dot_S128x64x64_S128x64x128_S128x64x128_2_1_1_2_0_0.rhsIdx_val_of_single rfl _ _).trans hk
    | ⟨2, _⟩ => exact adj_rhs2 _ _)
  rw [el, er]

/-- The sum over the node axis, from the zero word: at graph `p`, feature `d` it is the sum over that graph's nodes. -/
theorem sum_nodes (h : FVec Ideal S128x64x128 .f32) (p : Fin 128) (d : Fin 128) :
    multiReduction .add [1] S128x128 h 0x00000000#32 reduces_S128x64x128_S128x128 (.inl rfl) rfl (ix2 p d)
      = ∑ n : Fin 64, h (ix3 p n d) := by
  refine (Ideal.multiReduction_add_single h 0x00000000#32 reduces_S128x64x128_S128x128 (.inl rfl) rfl (ix2 p d)).trans ?_
  refine Finset.sum_congr rfl fun n _ => congrArg h (funext fun a => Fin.ext ?_)
  match a with
  | ⟨0, _⟩ => rfl
  | ⟨1, _⟩ => rfl
  | ⟨2, _⟩ => rfl

/-! ## One layer of the body -/

/-- The rectified affine stage over a block: flatten, multiply by the (transposed) weights, add the bias, clip at zero,
    restore the axes. -/
def kLin (x : FVec Ideal S128x64x128 .f32) (w : Vec Ideal S1x128x128 .f32) (b : Vec Ideal S1x128 .f32) : FVec Ideal S128x64x128 .f32 :=
  shapeCast S128x64x128
    (maximumf
      (addf
        (matmul dot_S8192x128_S128x128_S8192x128_1_0_0_1_n_n none
          (truncf .bf16 (shapeCast S8192x128 x shapeCasts_S128x64x128_S8192x128) bitsLt_bf16_f32)
          (truncf .bf16 (shapeCast S128x128 w shapeCasts_S1x128x128_S128x128) bitsLt_bf16_f32)
          (constant S8192x128 .f32 0x00000000#32))
        (broadcastTo S8192x128 (shapeCast S1x128 (shapeCast S128 b shapeCasts_S1x128_S128) shapeCasts_S128_S1x128) broadcasts_S1x128_S8192x128))
      (broadcast S8192x128 (Scalar.ofBits .f32 0x00000000#32)))
    shapeCasts_S8192x128_S128x64x128

/-- The adjacency stage over a block: each graph's adjacency times that graph's node vectors. -/
def kAdj (a : FVec Ideal S128x64x64 .bf16) (z : FVec Ideal S128x64x128 .f32) : FVec Ideal S128x64x128 .f32 :=
  matmul dot_S128x64x64_S128x64x128_S128x64x128_2_1_1_2_0_0 none a (truncf .bf16 z bitsLt_bf16_f32) (constant S128x64x128 .f32 0x00000000#32)

/-- One layer over a block. -/
def kLayer (x : FVec Ideal S128x64x128 .f32) (a : FVec Ideal S128x64x64 .bf16) (w : Vec Ideal S1x128x128 .f32) (b : Vec Ideal S1x128 .f32) :
    FVec Ideal S128x64x128 .f32 :=
  addf (kLin x w b) (kAdj a (kLin x w b))

/-- The pooling over a block. -/
def kPool (h : FVec Ideal S128x64x128 .f32) : FVec Ideal S128x128 .f32 :=
  multiReduction .add [1] S128x128 h 0x00000000#32 reduces_S128x64x128_S128x128 (.inl rfl) rfl

/-- The rectified affine stage at graph `p` of the block is `lin` of that graph's node vectors, the weights read
    transposed: the loaded stack holds them as (input feature, output feature). -/
theorem kLin_apply (x : FVec Ideal S128x64x128 .f32) (w : Vec Ideal S1x128x128 .f32) (b : Vec Ideal S1x128 .f32)
    (p : Fin 128) (n : Fin 64) (j : Fin 128) :
    kLin x w b (ix3 p n j) = lin (fun j k => w (ix3 0 k j)) (fun j => b (ix2 0 j)) (fun n k => x (ix3 p n k)) n j := by
  unfold kLin lin
  refine (unflatten _ p n j).trans ?_
  rw [maximumf_apply, addf_apply, broadcast_apply, matmul_rows, bias_rows]
  simp only [truncf_apply, flatten, weights_cast]
  rfl

/-- The adjacency stage at graph `p` sums over that graph's nodes. -/
theorem kAdj_apply (a : FVec Ideal S128x64x64 .bf16) (z : FVec Ideal S128x64x128 .f32) (p : Fin 128) (m : Fin 64) (d : Fin 128) :
    kAdj a z (ix3 p m d) = ∑ n : Fin 64, a (ix3 p m n) * z (ix3 p n d) := by
  unfold kAdj
  refine (matmul_adj a _ p m d).trans ?_
  simp only [truncf_apply]

/-- One layer of the body at graph `p` of the block is `layer` of that graph's slabs. -/
theorem kLayer_apply (x : FVec Ideal S128x64x128 .f32) (a : FVec Ideal S128x64x64 .bf16) (w : Vec Ideal S1x128x128 .f32)
    (b : Vec Ideal S1x128 .f32) (p : Fin 128) (m : Fin 64) (d : Fin 128) :
    kLayer x a w b (ix3 p m d)
      = layer (fun m n => a (ix3 p m n)) (fun j k => w (ix3 0 k j)) (fun j => b (ix2 0 j)) (fun n k => x (ix3 p n k)) m d := by
  unfold kLayer layer
  rw [addf_apply, kAdj_apply, kLin_apply]
  simp only [kLin_apply]

/-- The pooling at graph `p` of the block is `pool` of that graph's node vectors. -/
theorem kPool_apply (h : FVec Ideal S128x64x128 .f32) (p : Fin 128) (d : Fin 128) :
    kPool h (ix2 p d) = pool (fun n k => h (ix3 p n k)) d :=
  sum_nodes h p d

/-! ## The stored value -/

/-- The value the body stores is the pooling of three layers over the loaded block: the same adjacency block, changed
    to the narrow format once, and the three loaded (weights, bias) pairs in turn. -/
theorem stored_eq (v0 : Vec Ideal S128x64x128 .f32) (v2 : Vec Ideal S128x64x64 .f32) (v4 : Vec Ideal S1x128x128 .f32) (v7 : Vec Ideal S1x128 .f32)
    (v21 : Vec Ideal S1x128x128 .f32) (v24 : Vec Ideal S1x128 .f32) (v38 : Vec Ideal S1x128x128 .f32) (v41 : Vec Ideal S1x128 .f32) :
    k0_pay1 (F := Ideal) (k0_pay2 v2) (k0_pay3 v0 v2 v4 v7 v21 v24) (k0_pay4 v0 v2 v4 v7 v21 v24) v38 v41
      = kPool (kLayer (kLayer (kLayer v0 (truncf .bf16 v2 bitsLt_bf16_f32) v4 v7) (truncf .bf16 v2 bitsLt_bf16_f32) v21 v24)
          (truncf .bf16 v2 bitsLt_bf16_f32) v38 v41) := by
  unfold k0_pay1 k0_pay4 k0_pay3 k0_pay2 kPool kLayer kAdj kLin
  rw [shapeCast_self]

/-- The stored value at graph `p` of the block, feature `d`: that graph's message passing and pooling, over its slab of the
    node features, its slab of the adjacencies, and the three loaded weight and bias slices. -/
theorem stored_apply (v0 : Vec Ideal S128x64x128 .f32) (v2 : Vec Ideal S128x64x64 .f32) (v4 : Vec Ideal S1x128x128 .f32) (v7 : Vec Ideal S1x128 .f32)
    (v21 : Vec Ideal S1x128x128 .f32) (v24 : Vec Ideal S1x128 .f32) (v38 : Vec Ideal S1x128x128 .f32) (v41 : Vec Ideal S1x128 .f32)
    (p : Fin 128) (d : Fin 128) :
    k0_pay1 (F := Ideal) (k0_pay2 v2) (k0_pay3 v0 v2 v4 v7 v21 v24) (k0_pay4 v0 v2 v4 v7 v21 v24) v38 v41 (ix2 p d)
      = pool (layer (fun m n => v2 (ix3 p m n)) (fun j k => v38 (ix3 0 k j)) (fun j => v41 (ix2 0 j))
          (layer (fun m n => v2 (ix3 p m n)) (fun j k => v21 (ix3 0 k j)) (fun j => v24 (ix2 0 j))
            (layer (fun m n => v2 (ix3 p m n)) (fun j k => v4 (ix3 0 k j)) (fun j => v7 (ix2 0 j)) (fun n k => v0 (ix3 p n k))))) d := by
  rw [stored_eq, kPool_apply]
  have h2 := fun x w b => funext fun n => funext fun k => kLayer_apply x (truncf .bf16 v2 bitsLt_bf16_f32) w b p n k
  rw [h2, h2, h2]
  simp only [truncf_apply]

end Cert.KernelIdeal.BodyValue

end
-- ==== Proof.Blocks.lean ====
/-
  From the blocks the grid points write to the whole result array.

  The grid has 32 points. Point `t` stages graphs `128·t … 128·t + 127` of the node features and of the adjacencies,
  the whole (transposed) weight stack and the whole bias table, and writes rows `128·t … 128·t + 127` of the result.
  So row `p` of what point `t` writes is the message passing and pooling of graph `128·t + p`, read off the argument
  arrays; the 32 row blocks tile the 4096 rows, hence the result array is `out` everywhere.
-/
import proofs.«120459_j9388798509092_2_alg».proof.Proof.Gen.KernelIdeal.Value
import proofs.«120459_j9388798509092_2_alg».proof.Proof.Gen.ReferenceIdeal.Read
import proofs.«120459_j9388798509092_2_alg».proof.Proof.BodyLayers
import proofs.«120459_j9388798509092_2_alg».proof.Proof.Layers
import Idealize.ShloMosaic.Lib.StableHlo.Run

noncomputable section

open scoped BigOperators

namespace Cert.KernelIdeal.ArrayValue

open Cert.KernelIdeal Cert.KernelIdeal.Gen Cert.KernelIdeal.BodyValue Cert.MessagePassing
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the host operations write before the region -/

/-- The node features the region finds: the embedding rows gathered at the (wrapped) node identifiers, viewed as
    4096 graphs of 64 nodes. It is the very term the reference computes its node features by. -/
theorem features_eq (c : Dev nD) :
    (V m c main_v7 : S4096x64x128.Idx → EReal)
      = Cert.ReferenceIdeal.Read.val_main_v7 (F := Ideal) (m ((c : Thread nD τ).loc main_arg0)) (m ((c : Thread nD τ).loc main_arg2)) := by
  dsimp only [Gen.V, Gen.hostOps0]
  after_results <;> rfl

/-- The weight stack the region finds: each layer's matrix transposed. -/
theorem weightsT_eq (c : Dev nD) :
    (V m c main_v8 : S3x128x128.Idx → EReal)
      = transpose S3x128x128 [0, 2, 1] (m ((c : Thread nD τ).loc main_arg3)) transposes_S3x128x128_S3x128x128_0_2_1 := by
  dsimp only [Gen.V, Gen.hostOps0]
  after_results <;> rfl

/-- Read at (layer, input feature, output feature) it is the argument at (layer, output feature, input feature). -/
theorem weightsT_apply (c : Dev nD) (l : Fin 3) (k j : Fin 128) :
    V m c main_v8 (ix3 l k j) = m ((c : Thread nD τ).loc main_arg3) (ix3 l j k) := by
  rw [weightsT_eq]
  exact transpose_apply [0, 2, 1] _ transposes_S3x128x128_S3x128x128_0_2_1 (ix3 l k j) (ix3 l j k) (fun b => match b with
    | ⟨0, _⟩ => rfl
    | ⟨1, _⟩ => rfl
    | ⟨2, _⟩ => rfl)

/-! ## Where each window's block sits at a point -/

/-- The printed index maps over the 32 points: the node features, the adjacencies and the result move with the point
    along their first axis; the weights and biases stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Graph `p` of point `t`'s block is graph `128·t + p` of the batch. -/
def graphAt (t : Fin cfg0.N) (p : Fin 128) : Fin 4096 :=
  ⟨t.val * 128 + p.val, by have ht : t.val < 32 := lt_of_lt_of_eq t.isLt N_0; have hp := p.isLt; omega⟩

/-! ## The body's stored block, over any staged contents -/

/-- The zero offsets of a rectangle that is its whole buffer, at rank three and at rank two. -/
theorem hz3 : (![0, 0, 0] : Fin 3 → Nat) = fun _ => 0 := funext fun a => by fin_cases a <;> rfl
theorem hz2 : (![0, 0] : Fin 2 → Nat) = fun _ => 0 := funext fun a => by fin_cases a <;> rfl

/-! A load of one layer's slice of the staged weight stack, or of one row of the staged bias table, reads that layer's
    entries: the slice's rectangle sits at offset `l` on the first axis and at zero on the others. -/

theorem ld_weights0 (X : Vec Ideal S3x128x128 .f32) (k j : Fin 128) : View.ld X r0_2 (ix3 0 k j) = X (ix3 0 k j) := by
  show X (r0_2.idx (ix3 0 k j)) = _
  refine congrArg X (funext fun a => Fin.ext ?_)
  match a with
  | ⟨0, _⟩ => rfl
  | ⟨1, _⟩ => show 0 + 1 * k.val = k.val; omega
  | ⟨2, _⟩ => show 0 + 1 * j.val = j.val; omega

theorem ld_weights1 (X : Vec Ideal S3x128x128 .f32) (k j : Fin 128) : View.ld X r0_4 (ix3 0 k j) = X (ix3 1 k j) := by
  show X (r0_4.idx (ix3 0 k j)) = _
  refine congrArg X (funext fun a => Fin.ext ?_)
  match a with
  | ⟨0, _⟩ => rfl
  | ⟨1, _⟩ => show 0 + 1 * k.val = k.val; omega
  | ⟨2, _⟩ => show 0 + 1 * j.val = j.val; omega

theorem ld_weights2 (X : Vec Ideal S3x128x128 .f32) (k j : Fin 128) : View.ld X r0_6 (ix3 0 k j) = X (ix3 2 k j) := by
  show X (r0_6.idx (ix3 0 k j)) = _
  refine congrArg X (funext fun a => Fin.ext ?_)
  match a with
  | ⟨0, _⟩ => rfl
  | ⟨1, _⟩ => show 0 + 1 * k.val = k.val; omega
  | ⟨2, _⟩ => show 0 + 1 * j.val = j.val; omega

theorem ld_bias0 (X : Vec Ideal S3x128 .f32) (j : Fin 128) : View.ld X r0_3 (ix2 0 j) = X (ix2 0 j) := by
  show X (r0_3.idx (ix2 0 j)) = _
  refine congrArg X (funext fun a => Fin.ext ?_)
  match a with
  | ⟨0, _⟩ => rfl
  | ⟨1, _⟩ => show 0 + 1 * j.val = j.val; omega

theorem ld_bias1 (X : Vec Ideal S3x128 .f32) (j : Fin 128) : View.ld X r0_5 (ix2 0 j) = X (ix2 1 j) := by
  show X (r0_5.idx (ix2 0 j)) = _
  refine congrArg X (funext fun a => Fin.ext ?_)
  match a with
  | ⟨0, _⟩ => rfl
  | ⟨1, _⟩ => show 0 + 1 * j.val = j.val; omega

theorem ld_bias2 (X : Vec Ideal S3x128 .f32) (j : Fin 128) : View.ld X r0_7 (ix2 0 j) = X (ix2 2 j) := by
  show X (r0_7.idx (ix2 0 j)) = _
  refine congrArg X (funext fun a => Fin.ext ?_)
  match a with
  | ⟨0, _⟩ => rfl
  | ⟨1, _⟩ => show 0 + 1 * j.val = j.val; omega

/-- What the body leaves in the result's staging buffer, at graph `p` of the block and feature `d`: that graph's message
    passing and pooling over the staged node features `X0` and adjacencies `X1`, with layer `l`'s weights the staged
    stack's entries (l, input feature, output feature) and its bias the staged table's row `l`. -/
theorem block_value (X0 : Vec Ideal S128x64x128 .f32) (X1 : Vec Ideal S128x64x64 .f32) (X2 : Vec Ideal S3x128x128 .f32)
    (X3 : Vec Ideal S3x128 .f32) (p : Fin 128) (d : Fin 128) :
    out0_4 X0 X1 X2 X3 (ix2 p d)
      = pool (layer (fun m n => X1 (ix3 p m n)) (fun j k => X2 (ix3 2 k j)) (fun j => X3 (ix2 2 j))
          (layer (fun m n => X1 (ix3 p m n)) (fun j k => X2 (ix3 1 k j)) (fun j => X3 (ix2 1 j))
            (layer (fun m n => X1 (ix3 p m n)) (fun j k => X2 (ix3 0 k j)) (fun j => X3 (ix2 0 j)) (fun n k => X0 (ix3 p n k))))) d := by
  unfold out0_4
  rw [View.canon_unit_zero hz2]
  have e0 : View.ld X0 r0_0 = X0 := View.ld_unit_zero (S := S128x64x128) hz3 _ X0
  have e1 : View.ld X1 r0_1 = X1 := View.ld_unit_zero (S := S128x64x64) hz3 _ X1
  rw [e0, e1, stored_apply]
  have w0 : (fun j k : Fin 128 => View.ld X2 r0_2 (ix3 0 k j)) = fun j k => X2 (ix3 0 k j) :=
    funext fun j => funext fun k => ld_weights0 X2 k j
  have w1 : (fun j k : Fin 128 => View.ld X2 r0_4 (ix3 0 k j)) = fun j k => X2 (ix3 1 k j) :=
    funext fun j => funext fun k => ld_weights1 X2 k j
  have w2 : (fun j k : Fin 128 => View.ld X2 r0_6 (ix3 0 k j)) = fun j k => X2 (ix3 2 k j) :=
    funext fun j => funext fun k => ld_weights2 X2 k j
  have b0 : (fun j : Fin 128 => View.ld X3 r0_3 (ix2 0 j)) = fun j => X3 (ix2 0 j) := funext fun j => ld_bias0 X3 j
  have b1 : (fun j : Fin 128 => View.ld X3 r0_5 (ix2 0 j)) = fun j => X3 (ix2 1 j) := funext fun j => ld_bias1 X3 j
  have b2 : (fun j : Fin 128 => View.ld X3 r0_7 (ix2 0 j)) = fun j => X3 (ix2 2 j) := funext fun j => ld_bias2 X3 j
  rw [w0, w1, w2, b0, b1, b2]

/-! ## The staged blocks, read off the arrays -/

/-- Point `t`'s block of the node features holds graphs `128·t + p`. -/
theorem features_blk (c : Dev nD) (t : Fin cfg0.N) (p : Fin 128) (n : Fin 64) (k : Fin 128) :
    iblk m c 0 t (ix3 p n k)
      = Cert.ReferenceIdeal.Read.val_main_v7 (F := Ideal) (m ((c : Thread nD τ).loc main_arg0)) (m ((c : Thread nD τ).loc main_arg2))
          (ix3 (graphAt t p) n k) := by
  rw [← features_eq m c]
  show V m c main_v7 (((cfg0.win 0).blk t).view.emb (ix3 p n k)) = V m c main_v7 (ix3 (graphAt t p) n k)
  refine congrArg (V m c main_v7) (funext fun a => Fin.ext ?_)
  obtain ⟨e0, e1, e2, -⟩ := idx_facts t
  match a with
  | ⟨0, _⟩ => show win0_0.index t (0 : Fin 3) * 128 + 1 * p.val = t.val * 128 + p.val; omega
  | ⟨1, _⟩ => show win0_0.index t (1 : Fin 3) * 64 + 1 * n.val = n.val; omega
  | ⟨2, _⟩ => show win0_0.index t (2 : Fin 3) * 128 + 1 * k.val = k.val; omega

/-- Point `t`'s block of the adjacencies holds graphs `128·t + p`. -/
theorem adjacency_blk (c : Dev nD) (t : Fin cfg0.N) (p : Fin 128) (a b : Fin 64) :
    iblk m c 1 t (ix3 p a b) = m ((c : Thread nD τ).loc main_arg1) (ix3 (graphAt t p) a b) := by
  rw [← V_main_arg1 m c]
  show V m c main_arg1 (((cfg0.win 1).blk t).view.emb (ix3 p a b)) = V m c main_arg1 (ix3 (graphAt t p) a b)
  refine congrArg (V m c main_arg1) (funext fun x => Fin.ext ?_)
  obtain ⟨-, -, -, e0, e1, e2, -⟩ := idx_facts t
  match x with
  | ⟨0, _⟩ => show win0_1.index t (0 : Fin 3) * 128 + 1 * p.val = t.val * 128 + p.val; omega
  | ⟨1, _⟩ => show win0_1.index t (1 : Fin 3) * 64 + 1 * a.val = a.val; omega
  | ⟨2, _⟩ => show win0_1.index t (2 : Fin 3) * 64 + 1 * b.val = b.val; omega

/-- Every point stages the whole transposed weight stack: entry (layer, input feature, output feature) is the
    argument's (layer, output feature, input feature). -/
theorem weights_blk (c : Dev nD) (t : Fin cfg0.N) (l : Fin 3) (k j : Fin 128) :
    iblk m c 2 t (ix3 l k j) = m ((c : Thread nD τ).loc main_arg3) (ix3 l j k) := by
  rw [← weightsT_apply m c l k j]
  show V m c main_v8 (((cfg0.win 2).blk t).view.emb (ix3 l k j)) = V m c main_v8 (ix3 l k j)
  refine congrArg (V m c main_v8) (funext fun x => Fin.ext ?_)
  obtain ⟨-, -, -, -, -, -, e0, e1, e2, -⟩ := idx_facts t
  match x with
  | ⟨0, _⟩ => show win0_2.index t (0 : Fin 3) * 3 + 1 * l.val = l.val; omega
  | ⟨1, _⟩ => show win0_2.index t (1 : Fin 3) * 128 + 1 * k.val = k.val; omega
  | ⟨2, _⟩ => show win0_2.index t (2 : Fin 3) * 128 + 1 * j.val = j.val; omega

/-- Every point stages the whole bias table. -/
theorem bias_blk (c : Dev nD) (t : Fin cfg0.N) (l : Fin 3) (j : Fin 128) :
    iblk m c 3 t (ix2 l j) = m ((c : Thread nD τ).loc main_arg4) (ix2 l j) := by
  rw [← V_main_arg4 m c]
  show V m c main_arg4 (((cfg0.win 3).blk t).view.emb (ix2 l j)) = V m c main_arg4 (ix2 l j)
  refine congrArg (V m c main_arg4) (funext fun x => Fin.ext ?_)
  obtain ⟨-, -, -, -, -, -, -, -, -, e0, e1, -⟩ := idx_facts t
  match x with
  | ⟨0, _⟩ => show win0_3.index t (0 : Fin 2) * 3 + 1 * l.val = l.val; omega
  | ⟨1, _⟩ => show win0_3.index t (1 : Fin 2) * 128 + 1 * j.val = j.val; omega

/-- Row `p` of point `t`'s result block is row `128·t + p` of the result. -/
theorem result_emb (t : Fin cfg0.N) (p : Fin 128) (d : Fin 128) :
    ((cfg0.win 4).blk t).view.emb (ix2 p d) = ix2 (graphAt t p) d := by
  refine funext fun x => Fin.ext ?_
  obtain ⟨-, -, -, -, -, -, -, -, -, -, -, e0, e1⟩ := idx_facts t
  match x with
  | ⟨0, _⟩ => show win0_4.index t (0 : Fin 2) * 128 + 1 * p.val = t.val * 128 + p.val; omega
  | ⟨1, _⟩ => show win0_4.index t (1 : Fin 2) * 128 + 1 * d.val = d.val; omega

/-! ## The result array -/

/-- The result as ONE function of the argument arrays: graph `g`'s message passing and pooling over the gathered node
    features (the reference's own term for them), the adjacencies, the weights and the biases. -/
def result (c : Dev nD) : S4096x128.Idx → EReal := fun i =>
  out (Cert.ReferenceIdeal.Read.val_main_v7 (F := Ideal) (m ((c : Thread nD τ).loc main_arg0)) (m ((c : Thread nD τ).loc main_arg2)))
    (m ((c : Thread nD τ).loc main_arg1)) (m ((c : Thread nD τ).loc main_arg3)) (m ((c : Thread nD τ).loc main_arg4)) (i 0) (i 1)

/-- What point `t` writes back is block `t` of `result`. -/
theorem flushed_eq (c : Dev nD) (t : Fin cfg0.N) :
    (dats m 0 c).flushed 4 t = ((cfg0.win 4).blk t).view.read (Elt Ideal) (result m c) := by
  rw [Value.flushed4]
  funext j
  obtain ⟨p, d, rfl⟩ : ∃ (p : Fin 128) (d : Fin 128), j = ix2 p d := ⟨j 0, j 1, eq_ix2 j⟩
  show out0_4 (iblk m c 0 t) (iblk m c 1 t) (iblk m c 2 t) (iblk m c 3 t) (ix2 p d)
    = result m c (((cfg0.win 4).blk t).view.emb (ix2 p d))
  refine (block_value (iblk m c 0 t) (iblk m c 1 t) (iblk m c 2 t) (iblk m c 3 t) p d).trans ?_
  rw [result_emb]
  have hX0 : (fun (n : Fin 64) (k : Fin 128) => iblk m c 0 t (ix3 p n k)) = _ :=
    funext fun n => funext fun k => features_blk m c t p n k
  have hX1 : (fun (a b : Fin 64) => iblk m c 1 t (ix3 p a b)) = _ :=
    funext fun a => funext fun b => adjacency_blk m c t p a b
  have hW : ∀ l : Fin 3, (fun (j k : Fin 128) => iblk m c 2 t (ix3 l k j)) = _ :=
    fun l => funext fun j => funext fun k => weights_blk m c t l k j
  have hB : ∀ l : Fin 3, (fun (j : Fin 128) => iblk m c 3 t (ix2 l j)) = _ :=
    fun l => funext fun j => bias_blk m c t l j
  rw [hX0, hX1, hW 0, hW 1, hW 2, hB 0, hB 1, hB 2]
  rfl

/-- An index of the result is in point `t`'s block iff each coordinate is in the block's range on its axis. -/
theorem mem_blk (t : Fin cfg0.N) (i : S4096x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v9).slice (win0_4.rect t)).set ↔ _
  rw [View.set_slice_whole, Rect.mem_set_unit]
  exact Iff.rfl

/-- The 32 row blocks tile the result: row `r` is in the block of point `r / 128`. -/
theorem cover (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 32 := N_0
  have ht : (i 0).val / 128 < cfg0.N := by rw [hN]; omega
  refine ⟨⟨(i 0).val / 128, ht⟩, flush0_4 _, ?_⟩
  rw [mem_blk]
  obtain ⟨-, -, -, -, -, -, -, -, -, -, -, e0, e1⟩ := idx_facts ⟨(i 0).val / 128, ht⟩
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 2) * 128 ≤ (i 1).val ∧ (i 1).val < win0_4.index ⟨(i 0).val / 128, ht⟩ (1 : Fin 2) * 128 + 128
    rw [e1]; omega

/-- The result array after the run is `result`. -/
theorem final (c : Dev nD) : (dats m 0 c).arrAt 4 cfg0.N = result m c :=
  (dats m 0 c).arrAt_eq_of_cover 4 (result m c) (fun t _ => flushed_eq m c t) cover

/-! ## The run -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.lean ====
/-
  Message passing over 4096 graphs of 64 nodes with 128 features: the tiled kernel against the whole-batch reference,
  equal on the extended reals.

  Both programs gather the node features from the embedding table by the same host operations. Both then apply three
  layers — a rectified affine map of every node's features, plus the adjacency-weighted sum of the rectified vectors
  over the graph's nodes — and sum each feature over the nodes. The reference does this on the whole batch; the kernel
  does it on 32 blocks of 128 graphs, with the weights transposed beforehand so that its products contract the other
  axis, and with changes of float format on the way into its products, which are the identity on extended reals.

  Every operation reads one graph's slab only, so both sides are, graph by graph, the SAME nested sums: no sum is
  regrouped, and no factor crosses a sum. The equality therefore holds for all extended reals, and the finiteness
  precondition is not used. `Layers` states one graph's computation; `RefLayers` reads the reference's stages as it;
  `BodyLayers` reads the kernel body's stored block as it; `Blocks` passes from the 32 row blocks to the whole result.
  The idealization changed nothing in the kernel's text, so there is nothing to preserve.
-/
import proofs.«120459_j9388798509092_2_alg».proof.Defs
import proofs.«120459_j9388798509092_2_alg».proof.Proof.Gen.Kernel
import proofs.«120459_j9388798509092_2_alg».proof.Proof.Gen.Kernel.Skeleton
import proofs.«120459_j9388798509092_2_alg».proof.Proof.Gen.Kernel.Launch
import proofs.«120459_j9388798509092_2_alg».proof.Proof.Gen.Kernel.Points
import proofs.«120459_j9388798509092_2_alg».proof.Proof.Gen.Kernel.Frame
import proofs.«120459_j9388798509092_2_alg».proof.Proof.Gen.KernelIdeal
import proofs.«120459_j9388798509092_2_alg».proof.Proof.Gen.KernelIdeal.Skeleton
import proofs.«120459_j9388798509092_2_alg».proof.Proof.Gen.KernelIdeal.Launch
import proofs.«120459_j9388798509092_2_alg».proof.Proof.Gen.KernelIdeal.Points
import proofs.«120459_j9388798509092_2_alg».proof.Proof.Gen.KernelIdeal.Frame
import proofs.«120459_j9388798509092_2_alg».proof.Proof.Gen.ReferenceIdeal
import proofs.«120459_j9388798509092_2_alg».proof.Proof.Gen.KernelIdeal.Value
import proofs.«120459_j9388798509092_2_alg».proof.Proof.Gen.ReferenceIdeal.Run
import proofs.«120459_j9388798509092_2_alg».proof.Proof.Gen.ReferenceIdeal.Read
import proofs.«120459_j9388798509092_2_alg».proof.Proof.Gen.Pre_finite_inputs
import proofs.«120459_j9388798509092_2_alg».proof.Proof.RefLayers
import proofs.«120459_j9388798509092_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array and the reference's are the same function of
    the arguments: graph by graph, the pooled output of three layers of message passing. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
